-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x32 : Shape := ⟨2, ![200000, 32]⟩
abbrev S2x6400000 : Shape := ⟨2, ![2, 6400000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S200000x32 : S_.BroadcastsInDim S200000x32 (![] : Fin 0 → Fin S200000x32.rank)
  reducesTo_S200000x32_S_d0_1 : S200000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S200000x32 .f32) (main_arg1 : IVec S2x6400000 32) (main_arg2 : FVec F S32x32 .f32) (main_arg3 : FVec F S32 .f32) (main_arg4 : FVec F S32x16 .f32) (main_arg5 : FVec F S16 .f32) : IVec S_ 1 :=
  let main_v0 : FVec F S200000x32 .f32 := Host.absf main_arg0
  let main_cst : FVec F S_ .f32 := constant S_ .f32 0x7F800000#32
  let main_v1 : FVec F S200000x32 .f32 := broadcastInDim S200000x32 ![] bcast_S_S200000x32 main_cst
  let main_v2 : IVec S200000x32 1 := cmpf .olt main_v0 main_v1
  let main_c : IVec S_ 1 := constantI S_ 1 1#1
  let main_v3 : IVec S_ 1 := (fun x v => Host.reduce IntOp.andi x v reducesTo_S200000x32_S_d0_1 h_S_) main_v2 main_c
  let main_v4 : FVec F S32x32 .f32 := Host.absf main_arg2
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_v13 main_v16
-- ==== Kernel.lean ====
abbrev S200000x32 : Shape := ⟨2, ![200000, 32]⟩
abbrev S2x6400000 : Shape := ⟨2, ![2, 6400000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S20000x32 : Shape := ⟨2, ![20000, 32]⟩
abbrev S6600000x32 : Shape := ⟨2, ![6600000, 32]⟩
abbrev S1x32 : Shape := ⟨2, ![1, 32]⟩
abbrev S200000x16 : Shape := ⟨2, ![200000, 16]⟩
abbrev S20000x16 : Shape := ⟨2, ![20000, 16]⟩
abbrev S6600000x16 : Shape := ⟨2, ![6600000, 16]⟩
abbrev S1x16 : Shape := ⟨2, ![1, 16]⟩

abbrev nBuf : Space → Nat
  | .hbm => 77
  | .vmem => 20
  | .smem => 0
  | _ => 0

abbrev bufTy : (tb : Table) → Fin (tcTables nBuf tb) → BufTy
  | .hbm, ⟨0, _⟩ => ⟨S200000x32, .f32⟩
  | .hbm, ⟨1, _⟩ => ⟨S2x6400000, .i32⟩
  | .hbm, ⟨2, _⟩ => ⟨S32x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S200000, .i32⟩
  | .hbm, ⟨7, _⟩ => ⟨S1x6400000, .i32⟩
  | .hbm, ⟨8, _⟩ => ⟨S6400000, .i32⟩
  | .hbm, ⟨9, _⟩ => ⟨S6600000, .i32⟩
  | .hbm, ⟨10, _⟩ => ⟨S1x6400000, .i32⟩
  | .hbm, ⟨11, _⟩ => ⟨S6400000, .i32⟩
  | .hbm, ⟨12, _⟩ => ⟨S6600000, .i32⟩
  | .hbm, ⟨13, _⟩ => ⟨S_, .f32⟩
  | .hbm, ⟨14, _⟩ => ⟨S6600000, .f32⟩
  | .hbm, ⟨15, _⟩ => ⟨S_, .f32⟩
  | .hbm, ⟨16, _⟩ => ⟨S200000, .f32⟩
  | .hbm, ⟨17, _⟩ => ⟨S6600000x1, .i32⟩
  | .hbm, ⟨18, _⟩ => ⟨S200000, .f32⟩
  | .hbm, ⟨19, _⟩ => ⟨S200000, .f32⟩
  | .hbm, ⟨20, _⟩ => ⟨S_, .i32⟩
  | .hbm, ⟨21, _⟩ => ⟨S6600000, .i32⟩
  | .hbm, ⟨22, _⟩ => ⟨S6600000, .i1⟩
  | .hbm, ⟨23, _⟩ => ⟨S_, .i32⟩
  | .hbm, ⟨24, _⟩ => ⟨S6600000, .i32⟩
  | .hbm, ⟨25, _⟩ => ⟨S6600000, .i32⟩
  | .hbm, ⟨26, _⟩ => ⟨S6600000, .i32⟩
  | .hbm, ⟨27, _⟩ => ⟨S6600000x1, .i32⟩
  | .hbm, ⟨28, _⟩ => ⟨S6600000, .f32⟩
  | .hbm, ⟨29, _⟩ => ⟨S_, .i32⟩
  | .hbm, ⟨30, _⟩ => ⟨S6600000, .i32⟩
  | .hbm, ⟨31, _⟩ => ⟨S6600000, .i1⟩
  | .hbm, ⟨32, _⟩ => ⟨S_, .i32⟩
  | .hbm, ⟨33, _⟩ => ⟨S6600000, .i32⟩
  | .hbm, ⟨34, _⟩ => ⟨S6600000, .i32⟩
  | .hbm, ⟨35, _⟩ => ⟨S6600000, .i32⟩
  | .hbm, ⟨36, _⟩ => ⟨S6600000x1, .i32⟩
  | .hbm, ⟨37, _⟩ => ⟨S6600000, .f32⟩
  | .hbm, ⟨38, _⟩ => ⟨S6600000, .f32⟩
  | .hbm, ⟨39, _⟩ => ⟨S200000x32, .f32⟩
  | .hbm, ⟨40, _⟩ => ⟨S_, .i32⟩
  | .hbm, ⟨41, _⟩ => ⟨S6600000, .i32⟩
  | .hbm, ⟨42, _⟩ => ⟨S6600000, .i1⟩
  | .hbm, ⟨43, _⟩ => ⟨S_, .i32⟩
  | .hbm, ⟨44, _⟩ => ⟨S6600000, .i32⟩
  | .hbm, ⟨45, _⟩ => ⟨S6600000, .i32⟩
  | .hbm, ⟨46, _⟩ => ⟨S6600000, .i32⟩
  | .hbm, ⟨47, _⟩ => ⟨S6600000x1, .i32⟩
  | .hbm, ⟨48, _⟩ => ⟨S6600000x32, .f32⟩
  | .hbm, ⟨49, _⟩ => ⟨S6600000x1, .f32⟩
  | .hbm, ⟨50, _⟩ => ⟨S6600000x32, .f32⟩
  | .hbm, ⟨51, _⟩ => ⟨S6600000x32, .f32⟩
  | .hbm, ⟨52, _⟩ => ⟨S_, .f32⟩
  | .hbm, ⟨53, _⟩ => ⟨S200000x32, .f32⟩
  | .hbm, ⟨54, _⟩ => ⟨S6600000x1, .i32⟩
  | .hbm, ⟨55, _⟩ => ⟨S200000x32, .f32⟩
  | .hbm, ⟨56, _⟩ => ⟨S1x32, .f32⟩
  | .hbm, ⟨57, _⟩ => ⟨S200000x32, .f32⟩
  | .hbm, ⟨58, _⟩ => ⟨S200000x16, .f32⟩
  | .hbm, ⟨59, _⟩ => ⟨S_, .i32⟩
  | .hbm, ⟨60, _⟩ => ⟨S6600000, .i32⟩
  | .hbm, ⟨61, _⟩ => ⟨S6600000, .i1⟩
  | .hbm, ⟨62, _⟩ => ⟨S_, .i32⟩
  | .hbm, ⟨63, _⟩ => ⟨S6600000, .i32⟩
  | .hbm, ⟨64, _⟩ => ⟨S6600000, .i32⟩
  | .hbm, ⟨65, _⟩ => ⟨S6600000, .i32⟩
  | .hbm, ⟨66, _⟩ => ⟨S6600000x1, .i32⟩
  | .hbm, ⟨67, _⟩ => ⟨S6600000x16, .f32⟩
  | .hbm, ⟨68, _⟩ => ⟨S6600000x1, .f32⟩
  | .hbm, ⟨69, _⟩ => ⟨S6600000x16, .f32⟩
  | .hbm, ⟨70, _⟩ => ⟨S6600000x16, .f32⟩
  | .hbm, ⟨71, _⟩ => ⟨S_, .f32⟩
  | .hbm, ⟨72, _⟩ => ⟨S200000x16, .f32⟩
  | .hbm, ⟨73, _⟩ => ⟨S6600000x1, .i32⟩
  | .hbm, ⟨74, _⟩ => ⟨S200000x16, .f32⟩
  | .hbm, ⟨75, _⟩ => ⟨S1x16, .f32⟩
  | .hbm, ⟨76, _⟩ => ⟨S200000x16, .f32⟩
  | .local _ .vmem, ⟨0, _⟩ => ⟨S20000x32, .f32⟩
  | .local _ .vmem, ⟨1, _⟩ => ⟨S20000x32, .f32⟩
  | .local _ .vmem, ⟨2, _⟩ => ⟨S32x32, .f32⟩
  | .local _ .vmem, ⟨3, _⟩ => ⟨S20000x32, .f32⟩
  | .local _ .vmem, ⟨4, _⟩ => ⟨S20000x32, .f32⟩
  | .local _ .vmem, ⟨5, _⟩ => ⟨S20000x32, .f32⟩
  | .local _ .vmem, ⟨6, _⟩ => ⟨S20000x32, .f32⟩
  | .local _ .vmem, ⟨7, _⟩ => ⟨S1x32, .f32⟩
  | .local _ .vmem, ⟨8, _⟩ => ⟨S20000x32, .f32⟩
  | .local _ .vmem, ⟨9, _⟩ => ⟨S20000x32, .f32⟩
  | .local _ .vmem, ⟨10, _⟩ => ⟨S20000x32, .f32⟩
  | .local _ .vmem, ⟨11, _⟩ => ⟨S20000x32, .f32⟩
  | .local _ .vmem, ⟨12, _⟩ => ⟨S32x16, .f32⟩
  | .local _ .vmem, ⟨13, _⟩ => ⟨S20000x16, .f32⟩
  | .local _ .vmem, ⟨14, _⟩ => ⟨S20000x16, .f32⟩
  | .local _ .vmem, ⟨15, _⟩ => ⟨S20000x16, .f32⟩
  | .local _ .vmem, ⟨16, _⟩ => ⟨S20000x16, .f32⟩
  | .local _ .vmem, ⟨17, _⟩ => ⟨S1x16, .f32⟩
  | .local _ .vmem, ⟨18, _⟩ => ⟨S20000x16, .f32⟩
  | .local _ .vmem, ⟨19, _⟩ => ⟨S20000x16, .f32⟩
  | _, _ => ⟨S200000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S20000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  inb_S20000x32_S20000x32_0_0 : ∀ a, (![0, 0] : Fin 2 → Nat) a + S20000x32.size a ≤ S20000x32.size a
  h_S20000x32 : 0 < S20000x32.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  bcast_S6600000x1_S6600000x32_0_1 : S6600000x1.BroadcastsInDim S6600000x32 (![0, 1] : Fin 2 → Fin S6600000x32.rank)
  bcast_S_S200000x32 : S_.BroadcastsInDim S200000x32 (![] : Fin 0 → Fin S200000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S20000x32 : S1x32.Broadcasts S20000x32
  shapeCasts_S20000x32_S20000x32 : S20000x32.ShapeCasts S20000x32
  inb_S32x16_S32x16_0_0 : ∀ a, (![0, 0] : Fin 2 → Nat) a + S32x16.size a ≤ S32x16.size a
  h_S32x16 : 0 < S32x16.numel
  inb_S20000x16_S20000x16_0_0 : ∀ a, (![0, 0] : Fin 2 → Nat) a + S20000x16.size a ≤ S20000x16.size a
  h_S20000x16 : 0 < S20000x16.numel
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S20000x16 : S1x16.Broadcasts S20000x16
  shapeCasts_S20000x16_S20000x16 : S20000x16.ShapeCasts S20000x16
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S20000x32_S32x32_S20000x32_1_0_0_1_n_n_wf : DotDims.WF S20000x32 S32x32 S20000x32 [1] [0] [0] [1] [] []
  gather_S200000x32_S6600000x1_S6600000x32_1_0_n_n_0_1_132_wf : GatherDims.WF S200000x32 S6600000x1 S6600000x32 [1] [0] [] [0] [] 1 ![1, 32]
  scatter_S200000x32_S6600000x1_S6600000x32_1_0_0_1_wf : ScatterDims.WF S200000x32 S6600000x1 S6600000x32 [1] [0] [0] 1
  dot_S20000x32_S32x16_S20000x16_1_0_0_1_n_n_wf : DotDims.WF S20000x32 S32x16 S20000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x32.size a ≤ S200000x32.size a
  hwx0_0 : ∀ i : grid0.Coords, EltTy.bits .f32 = 32 ∨ (Rect.block (s := S200000x32) S20000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x32.size a ≤ S200000x32.size a
  hwx0_2 : ∀ i : grid0.Coords, EltTy.bits .f32 = 32 ∨ (Rect.block (s := S200000x32) S20000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x32.size a ≤ S200000x32.size a
  hwx1_0 : ∀ i : grid1.Coords, EltTy.bits .f32 = 32 ∨ (Rect.block (s := S200000x32) S20000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x32.size a ≤ S200000x32.size a
  hwx1_2 : ∀ i : grid1.Coords, EltTy.bits .f32 = 32 ∨ (Rect.block (s := S200000x32) S20000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x32.size a ≤ S200000x32.size a
  hwx2_0 : ∀ i : grid2.Coords, EltTy.bits .f32 = 32 ∨ (Rect.block (s := S200000x32) S20000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x16.size a ≤ S200000x16.size a
  hwx2_2 : ∀ i : grid2.Coords, EltTy.bits .f32 = 32 ∨ (Rect.block (s := S200000x16) S20000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x16.size a ≤ S200000x16.size a
  hwx3_0 : ∀ i : grid3.Coords, EltTy.bits .f32 = 32 ∨ (Rect.block (s := S200000x16) S20000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20000x16.size a ≤ S200000x16.size a
  hwx3_2 : ∀ i : grid3.Coords, EltTy.bits .f32 = 32 ∨ (Rect.block (s := S200000x16) S20000x16.size (cc3_transform_2 i) (hinb3_2 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S20000x32_S32x32_S20000x32_1_0_0_1_n_n : DotDims S20000x32 S32x32 S20000x32 where
  lhsContracting := [1]
  rhsContracting := [0]
  lhsNonContracting := [0]
  rhsNonContracting := [1]
  lhsBatch := []
  rhsBatch := []
  wf := dot_S20000x32_S32x32_S20000x32_1_0_0_1_n_n_wf
def gather_S200000x32_S6600000x1_S6600000x32_1_0_n_n_0_1_132 : GatherDims S200000x32 S6600000x1 S6600000x32 where
  offsetDims := [1]
  collapsedSliceDims := [0]
  operandBatchingDims := []
  startIndicesBatchingDims := []
  startIndexMap := [0]
  indexVectorDim := 1
  sliceSizes := ![1, 32]
  wf := gather_S200000x32_S6600000x1_S6600000x32_1_0_n_n_0_1_132_wf
def scatter_S200000x32_S6600000x1_S6600000x32_1_0_0_1 : ScatterDims S200000x32 S6600000x1 S6600000x32 where
  updateWindowDims := [1]
  insertedWindowDims := [0]
  scatterDimsToOperandDims := [0]
  indexVectorDim := 1
  wf := scatter_S200000x32_S6600000x1_S6600000x32_1_0_0_1_wf
def dot_S20000x32_S32x16_S20000x16_1_0_0_1_n_n : DotDims S20000x32 S32x16 S20000x16 where
  lhsContracting := [1]
  rhsContracting := [0]
  lhsNonContracting := [0]
  rhsNonContracting := [1]
  lhsBatch := []
  rhsBatch := []
  wf := dot_S20000x32_S32x16_S20000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf

abbrev win0_0 : Pipeline.Window sig grid0 :=
  Pipeline.Window.ofSpec (Memref.whole main_arg0) S20000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S20000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S20000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S20000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S20000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S20000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S20000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S20000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S200000x32 : Shape := ⟨2, ![200000, 32]⟩
abbrev S2x6400000 : Shape := ⟨2, ![2, 6400000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S6600000x32 : Shape := ⟨2, ![6600000, 32]⟩
abbrev S1x32 : Shape := ⟨2, ![1, 32]⟩
abbrev S200000x16 : Shape := ⟨2, ![200000, 16]⟩
abbrev S6600000x16 : Shape := ⟨2, ![6600000, 16]⟩
abbrev S1x16 : Shape := ⟨2, ![1, 16]⟩

abbrev nBuf : Space → Nat
  | .hbm => 82
  | .vmem => 0
  | .smem => 0
  | _ => 0

abbrev bufTy : (tb : Table) → Fin (tcTables nBuf tb) → BufTy
  | .hbm, ⟨0, _⟩ => ⟨S200000x32, .f32⟩
  | .hbm, ⟨1, _⟩ => ⟨S2x6400000, .i32⟩
  | .hbm, ⟨2, _⟩ => ⟨S32x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S200000, .i32⟩
  | .hbm, ⟨7, _⟩ => ⟨S1x6400000, .i32⟩
  | .hbm, ⟨8, _⟩ => ⟨S6400000, .i32⟩
  | .hbm, ⟨9, _⟩ => ⟨S6600000, .i32⟩
  | .hbm, ⟨10, _⟩ => ⟨S1x6400000, .i32⟩
  | .hbm, ⟨11, _⟩ => ⟨S6400000, .i32⟩
  | .hbm, ⟨12, _⟩ => ⟨S6600000, .i32⟩
  | .hbm, ⟨13, _⟩ => ⟨S_, .f32⟩
  | .hbm, ⟨14, _⟩ => ⟨S6600000, .f32⟩
  | .hbm, ⟨15, _⟩ => ⟨S_, .f32⟩
  | .hbm, ⟨16, _⟩ => ⟨S200000, .f32⟩
  | .hbm, ⟨17, _⟩ => ⟨S6600000x1, .i32⟩
  | .hbm, ⟨18, _⟩ => ⟨S200000, .f32⟩
  | .hbm, ⟨19, _⟩ => ⟨S200000, .f32⟩
  | .hbm, ⟨20, _⟩ => ⟨S_, .i32⟩
  | .hbm, ⟨21, _⟩ => ⟨S6600000, .i32⟩
  | .hbm, ⟨22, _⟩ => ⟨S6600000, .i1⟩
  | .hbm, ⟨23, _⟩ => ⟨S_, .i32⟩
  | .hbm, ⟨24, _⟩ => ⟨S6600000, .i32⟩
  | .hbm, ⟨25, _⟩ => ⟨S6600000, .i32⟩
  | .hbm, ⟨26, _⟩ => ⟨S6600000, .i32⟩
  | .hbm, ⟨27, _⟩ => ⟨S6600000x1, .i32⟩
  | .hbm, ⟨28, _⟩ => ⟨S6600000, .f32⟩
  | .hbm, ⟨29, _⟩ => ⟨S_, .i32⟩
  | .hbm, ⟨30, _⟩ => ⟨S6600000, .i32⟩
  | .hbm, ⟨31, _⟩ => ⟨S6600000, .i1⟩
  | .hbm, ⟨32, _⟩ => ⟨S_, .i32⟩
  | .hbm, ⟨33, _⟩ => ⟨S6600000, .i32⟩
  | .hbm, ⟨34, _⟩ => ⟨S6600000, .i32⟩
  | .hbm, ⟨35, _⟩ => ⟨S6600000, .i32⟩
  | .hbm, ⟨36, _⟩ => ⟨S6600000x1, .i32⟩
  | .hbm, ⟨37, _⟩ => ⟨S6600000, .f32⟩
  | .hbm, ⟨38, _⟩ => ⟨S6600000, .f32⟩
  | .hbm, ⟨39, _⟩ => ⟨S200000x32, .f32⟩
  | .hbm, ⟨40, _⟩ => ⟨S_, .i32⟩
  | .hbm, ⟨41, _⟩ => ⟨S6600000, .i32⟩
  | .hbm, ⟨42, _⟩ => ⟨S6600000, .i1⟩
  | .hbm, ⟨43, _⟩ => ⟨S_, .i32⟩
  | .hbm, ⟨44, _⟩ => ⟨S6600000, .i32⟩
  | .hbm, ⟨45, _⟩ => ⟨S6600000, .i32⟩
  | .hbm, ⟨46, _⟩ => ⟨S6600000, .i32⟩
  | .hbm, ⟨47, _⟩ => ⟨S6600000x1, .i32⟩
  | .hbm, ⟨48, _⟩ => ⟨S6600000x32, .f32⟩
  | .hbm, ⟨49, _⟩ => ⟨S6600000x1, .f32⟩
  | .hbm, ⟨50, _⟩ => ⟨S6600000x32, .f32⟩
  | .hbm, ⟨51, _⟩ => ⟨S6600000x32, .f32⟩
  | .hbm, ⟨52, _⟩ => ⟨S_, .f32⟩
  | .hbm, ⟨53, _⟩ => ⟨S200000x32, .f32⟩
  | .hbm, ⟨54, _⟩ => ⟨S6600000x1, .i32⟩
  | .hbm, ⟨55, _⟩ => ⟨S200000x32, .f32⟩
  | .hbm, ⟨56, _⟩ => ⟨S1x32, .f32⟩
  | .hbm, ⟨57, _⟩ => ⟨S200000x32, .f32⟩
  | .hbm, ⟨58, _⟩ => ⟨S200000x32, .f32⟩
  | .hbm, ⟨59, _⟩ => ⟨S_, .f32⟩
  | .hbm, ⟨60, _⟩ => ⟨S200000x32, .f32⟩
  | .hbm, ⟨61, _⟩ => ⟨S200000x32, .f32⟩
  | .hbm, ⟨62, _⟩ => ⟨S200000x16, .f32⟩
  | .hbm, ⟨63, _⟩ => ⟨S_, .i32⟩
  | .hbm, ⟨64, _⟩ => ⟨S6600000, .i32⟩
  | .hbm, ⟨65, _⟩ => ⟨S6600000, .i1⟩
  | .hbm, ⟨66, _⟩ => ⟨S_, .i32⟩
  | .hbm, ⟨67, _⟩ => ⟨S6600000, .i32⟩
  | .hbm, ⟨68, _⟩ => ⟨S6600000, .i32⟩
  | .hbm, ⟨69, _⟩ => ⟨S6600000, .i32⟩
  | .hbm, ⟨70, _⟩ => ⟨S6600000x1, .i32⟩
  | .hbm, ⟨71, _⟩ => ⟨S6600000x16, .f32⟩
  | .hbm, ⟨72, _⟩ => ⟨S6600000x1, .f32⟩
  | .hbm, ⟨73, _⟩ => ⟨S6600000x16, .f32⟩
  | .hbm, ⟨74, _⟩ => ⟨S6600000x16, .f32⟩
  | .hbm, ⟨75, _⟩ => ⟨S_, .f32⟩
  | .hbm, ⟨76, _⟩ => ⟨S200000x16, .f32⟩
  | .hbm, ⟨77, _⟩ => ⟨S6600000x1, .i32⟩
  | .hbm, ⟨78, _⟩ => ⟨S200000x16, .f32⟩
  | .hbm, ⟨79, _⟩ => ⟨S1x16, .f32⟩
  | .hbm, ⟨80, _⟩ => ⟨S200000x16, .f32⟩
  | .hbm, ⟨81, _⟩ => ⟨S200000x16, .f32⟩
  | _, _ => ⟨S200000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x32_0_1 : S6600000x1.BroadcastsInDim S6600000x32 (![0, 1] : Fin 2 → Fin S6600000x32.rank)
  bcast_S_S200000x32 : S_.BroadcastsInDim S200000x32 (![] : Fin 0 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S200000x32_S32x32_S200000x32_1_0_0_1_n_n_wf : DotDims.WF S200000x32 S32x32 S200000x32 [1] [0] [0] [1] [] []
  gather_S200000x32_S6600000x1_S6600000x32_1_0_n_n_0_1_132_wf : GatherDims.WF S200000x32 S6600000x1 S6600000x32 [1] [0] [] [0] [] 1 ![1, 32]
  scatter_S200000x32_S6600000x1_S6600000x32_1_0_0_1_wf : ScatterDims.WF S200000x32 S6600000x1 S6600000x32 [1] [0] [0] 1
  dot_S200000x32_S32x16_S200000x16_1_0_0_1_n_n_wf : DotDims.WF S200000x32 S32x16 S200000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S200000x32_S32x32_S200000x32_1_0_0_1_n_n : DotDims S200000x32 S32x32 S200000x32 where
  lhsContracting := [1]
  rhsContracting := [0]
  lhsNonContracting := [0]
  rhsNonContracting := [1]
  lhsBatch := []
  rhsBatch := []
  wf := dot_S200000x32_S32x32_S200000x32_1_0_0_1_n_n_wf
def gather_S200000x32_S6600000x1_S6600000x32_1_0_n_n_0_1_132 : GatherDims S200000x32 S6600000x1 S6600000x32 where
  offsetDims := [1]
  collapsedSliceDims := [0]
  operandBatchingDims := []
  startIndicesBatchingDims := []
  startIndexMap := [0]
  indexVectorDim := 1
  sliceSizes := ![1, 32]
  wf := gather_S200000x32_S6600000x1_S6600000x32_1_0_n_n_0_1_132_wf
def scatter_S200000x32_S6600000x1_S6600000x32_1_0_0_1 : ScatterDims S200000x32 S6600000x1 S6600000x32 where
  updateWindowDims := [1]
  insertedWindowDims := [0]
  scatterDimsToOperandDims := [0]
  indexVectorDim := 1
  wf := scatter_S200000x32_S6600000x1_S6600000x32_1_0_0_1_wf
def dot_S200000x32_S32x16_S200000x16_1_0_0_1_n_n : DotDims S200000x32 S32x16 S200000x16 where
  lhsContracting := [1]
  rhsContracting := [0]
  lhsNonContracting := [0]
  rhsNonContracting := [1]
  lhsBatch := []
  rhsBatch := []
  wf := dot_S200000x32_S32x16_S200000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf

class Facts : Prop extends Facts₀ where

variable [Facts]
-- ==== Proof.KernelRun.lean ====
/-
  The idealized kernel program's run, with its result named.

  @main is seven segments: a stretch of host operations, the first dense product, a second stretch, the bias-and-ReLU
  launch, the second dense product, a third stretch, the final bias launch. The buffer contents at each boundary are a
  fold from the launch memory (`Gen.W0` … `Gen.W7`): a host stretch applies its operations in order, a launch replaces
  its result array by what its ten write-backs leave and keeps every other buffer. Every weakly fair execution
  terminates, nothing faulting, in a state where every unscoped buffer holds the last boundary's contents `Gen.W7`; read
  at the result buffer this names the program's result, and read at the six argument buffers it gives them back unchanged.
-/
import proofs.«144408_j446676599434_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the six arguments as launched. -/
theorem run : θ_run defs (onTc (τ := τ) (main (F := F))) ⟨m, fun _ => 0, ρ⟩ (fun r => ∀ c : Dev nD,
      r.2.mem ((c.tc : Thread nD τ).loc main_v58) = V7 m ρ c main_v58
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v58 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.HostFirst.lean ====
/-
  The host operations before the first launch, read back.

  From the edge list (a 2 × 6400000 integer array) the program builds, with one self-loop per node appended, the source
  column `src` and the target column `dst` (6600000 entries each), the degree of every node as a sum of ones scattered by
  `dst`, its reciprocal square root, and the edge weight `norm = dinv[src] · dinv[dst]` (negative indices wrapped by the
  node count before each gather). The reference performs the same operations in the same order, so whatever the buffers
  hold when the stretch starts (`W`), each of these three buffers ends holding the reference's own stage function of the
  edge list. None of the gathers or scatters is opened: the two sides are the same operations applied to the same
  operands.
-/
import proofs.«144408_j446676599434_1_alg».proof.Proof.Gen.KernelIdeal.Launch
import proofs.«144408_j446676599434_1_alg».proof.Proof.Gen.ReferenceIdeal.Read
import Idealize.ShloMosaic.Lib.StableHlo.Run

set_option maxRecDepth 16384

noncomputable section

namespace Cert.KernelIdeal.HostFirst

open Cert.KernelIdeal Cert.KernelIdeal.Gen Cert.ReferenceIdeal.Read
open Idealize.ShloMosaic Idealize.ShloMosaic.TcCoe Idealize.SL.Sem Idealize.ShloMosaic.StableHlo

variable (W : Valuation τ sig (Elt Ideal))

/-- The source column: the edge list's first row followed by `0, 1, …, 199999`. -/
theorem src_eq : after hostOps0 W (Proc.devRef .tc main_v3) = val_main_v3 (F := Ideal) (W (Proc.devRef .tc main_arg1)) := by
  after_results_simp
  rfl

/-- The target column: the edge list's second row followed by `0, 1, …, 199999`. -/
theorem dst_eq : after hostOps0 W (Proc.devRef .tc main_v6) = val_main_v6 (F := Ideal) (W (Proc.devRef .tc main_arg1)) := by
  after_results_simp
  rfl

/-- The edge weights `dinv[src] · dinv[dst]`. -/
theorem norm_eq : after hostOps0 W (Proc.devRef .tc main_v26) = val_main_v26 (F := Ideal) (W (Proc.devRef .tc main_arg1)) := by
  after_results_simp
  rfl

/-- The stretch writes none of the features, weights and biases. -/
theorem keeps_arg0 : after hostOps0 W (Proc.devRef .tc main_arg0) = W (Proc.devRef .tc main_arg0) := by after_results_simp
theorem keeps_arg2 : after hostOps0 W (Proc.devRef .tc main_arg2) = W (Proc.devRef .tc main_arg2) := by after_results_simp
theorem keeps_arg3 : after hostOps0 W (Proc.devRef .tc main_arg3) = W (Proc.devRef .tc main_arg3) := by after_results_simp
theorem keeps_arg4 : after hostOps0 W (Proc.devRef .tc main_arg4) = W (Proc.devRef .tc main_arg4) := by after_results_simp
theorem keeps_arg5 : after hostOps0 W (Proc.devRef .tc main_arg5) = W (Proc.devRef .tc main_arg5) := by after_results_simp

end Cert.KernelIdeal.HostFirst

end
-- ==== Proof.HostSecond.lean ====
/-
  The host operations between the first dense product and the first bias launch, read back.

  The stretch gathers the rows `hw[src]` of the product, scales row `e` by the edge weight `norm e`, and sums the scaled rows
  into their target nodes (a scatter-add by `dst` into zeros); it also stands the first bias up as a 1 × 32 row. The
  reference performs the same gather, scaling and scatter-add, so when the four buffers the stretch reads hold the
  reference's stage functions (the product, `src`, `dst`, `norm`), the aggregated features end holding the reference's
  next stage function. The gather and the scatter-add are never opened.
-/
import proofs.«144408_j446676599434_1_alg».proof.Proof.Gen.KernelIdeal.Launch
import proofs.«144408_j446676599434_1_alg».proof.Proof.Gen.ReferenceIdeal.Read
import Idealize.ShloMosaic.Lib.StableHlo.Run

set_option maxRecDepth 16384

noncomputable section

namespace Cert.KernelIdeal.HostSecond

open Cert.KernelIdeal Cert.KernelIdeal.Gen Cert.ReferenceIdeal.Read
open Idealize.ShloMosaic Idealize.ShloMosaic.TcCoe Idealize.SL.Sem Idealize.ShloMosaic.StableHlo

variable (W : Valuation τ sig (Elt Ideal))

/-- The first layer's aggregated features. -/
theorem agg_eq (x0 : (⟨Cert.ReferenceIdeal.S200000x32, .f32⟩ : BufTy).Contents (Elt Ideal))
    (x1 : (⟨Cert.ReferenceIdeal.S2x6400000, .i32⟩ : BufTy).Contents (Elt Ideal))
    (x2 : (⟨Cert.ReferenceIdeal.S32x32, .f32⟩ : BufTy).Contents (Elt Ideal))
    (h3 : W (Proc.devRef .tc main_v3) = val_main_v3 (F := Ideal) x1)
    (h6 : W (Proc.devRef .tc main_v6) = val_main_v6 (F := Ideal) x1)
    (h26 : W (Proc.devRef .tc main_v26) = val_main_v26 (F := Ideal) x1)
    (h27 : W (Proc.devRef .tc main_v27) = val_main_v27 (F := Ideal) x0 x2) :
    after hostOps1 W (Proc.devRef .tc main_v40) = val_main_v40 (F := Ideal) x0 x1 x2 := by
  after_results_simp
  rw [h3, h6, h26, h27]
  rfl

/-- The first bias as a row. -/
theorem row_eq : after hostOps1 W (Proc.devRef .tc main_v41)
    = shapeCast S1x32 (W (Proc.devRef .tc main_arg3)) shapeCasts_S32_S1x32 := by
  after_results_simp
  rfl

/-- The stretch writes none of these. -/
theorem keeps_v3 : after hostOps1 W (Proc.devRef .tc main_v3) = W (Proc.devRef .tc main_v3) := by after_results_simp
theorem keeps_v6 : after hostOps1 W (Proc.devRef .tc main_v6) = W (Proc.devRef .tc main_v6) := by after_results_simp
theorem keeps_v26 : after hostOps1 W (Proc.devRef .tc main_v26) = W (Proc.devRef .tc main_v26) := by after_results_simp
theorem keeps_arg4 : after hostOps1 W (Proc.devRef .tc main_arg4) = W (Proc.devRef .tc main_arg4) := by after_results_simp
theorem keeps_arg5 : after hostOps1 W (Proc.devRef .tc main_arg5) = W (Proc.devRef .tc main_arg5) := by after_results_simp

end Cert.KernelIdeal.HostSecond

end
-- ==== Proof.HostThird.lean ====
/-
  The host operations between the second dense product and the last bias launch, read back.

  As in the first layer: the rows `hw2[src]` of the second product are gathered, row `e` scaled by `norm e`, and the scaled
  rows summed into their target nodes by `dst`; the second bias is stood up as a 1 × 16 row. The reference performs the
  same operations, so when the four buffers the stretch reads hold the reference's stage functions, the aggregated
  features end holding the reference's next stage function. The gather and the scatter-add are never opened.
-/
import proofs.«144408_j446676599434_1_alg».proof.Proof.Gen.KernelIdeal.Launch
import proofs.«144408_j446676599434_1_alg».proof.Proof.Gen.ReferenceIdeal.Read
import Idealize.ShloMosaic.Lib.StableHlo.Run

set_option maxRecDepth 16384

noncomputable section

namespace Cert.KernelIdeal.HostThird

open Cert.KernelIdeal Cert.KernelIdeal.Gen Cert.ReferenceIdeal.Read
open Idealize.ShloMosaic Idealize.ShloMosaic.TcCoe Idealize.SL.Sem Idealize.ShloMosaic.StableHlo

variable (W : Valuation τ sig (Elt Ideal))

/-- The second layer's aggregated features. -/
theorem agg_eq (x0 : (⟨Cert.ReferenceIdeal.S200000x32, .f32⟩ : BufTy).Contents (Elt Ideal))
    (x1 : (⟨Cert.ReferenceIdeal.S2x6400000, .i32⟩ : BufTy).Contents (Elt Ideal))
    (x2 : (⟨Cert.ReferenceIdeal.S32x32, .f32⟩ : BufTy).Contents (Elt Ideal))
    (x3 : (⟨Cert.ReferenceIdeal.S32, .f32⟩ : BufTy).Contents (Elt Ideal))
    (x4 : (⟨Cert.ReferenceIdeal.S32x16, .f32⟩ : BufTy).Contents (Elt Ideal))
    (h3 : W (Proc.devRef .tc main_v3) = val_main_v3 (F := Ideal) x1)
    (h6 : W (Proc.devRef .tc main_v6) = val_main_v6 (F := Ideal) x1)
    (h26 : W (Proc.devRef .tc main_v26) = val_main_v26 (F := Ideal) x1)
    (h43 : W (Proc.devRef .tc main_v43) = val_main_v45 (F := Ideal) x0 x1 x2 x3 x4) :
    after hostOps3 W (Proc.devRef .tc main_v56) = val_main_v58 (F := Ideal) x0 x1 x2 x3 x4 := by
  after_results_simp
  rw [h3, h6, h26, h43]
  rfl

/-- The second bias as a row. -/
theorem row_eq : after hostOps3 W (Proc.devRef .tc main_v57)
    = shapeCast S1x16 (W (Proc.devRef .tc main_arg5)) shapeCasts_S16_S1x16 := by
  after_results_simp
  rfl

end Cert.KernelIdeal.HostThird

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«144408_j446676599434_1_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.FirstProduct.lean ====
/-
  The first dense product: `x · W1`, row block by row block.

  The launch walks ten blocks of 20000 rows. At a point the body loads its block of `x` (20000 × 32) and the whole
  weight matrix (32 × 32), and stores their product into the matching block of the result — both operands are first
  rounded to bf16, which over the extended reals changes nothing, and the product is accumulated into zeros, so an entry
  of the stored block is the plain sum over `k` of `x (r, k) · w (k, c)`. Row `p` of block `t` is row `20000 · t + p` of the
  array, in the operand and in the result alike, and the weight window never moves; so what a point writes back is its block
  of ONE function of the two whole arrays, `rowsTimes x w`, and since the ten blocks cover the 200000 rows the result
  array ends holding exactly that function. Nothing here needs the entries to be finite: both sides are the same sum of
  the same products.
-/
import proofs.«144408_j446676599434_1_alg».proof.Proof.Gen.KernelIdeal.Frame
import proofs.«144408_j446676599434_1_alg».proof.Proof.LibRowsTimes
import Idealize.ShloMosaic.Lib.Pipeline.Value
import Idealize.ShloMosaic.Lib.ValueIdx

noncomputable section

namespace Cert.KernelIdeal.FirstProduct

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.RowsTimes

-- the buffers' contents as the launch finds them: any contents at all
variable (V : (c : Dev nD) → (b : Ref sig .tc) → Buf (Elt Ideal) ((c : Thread nD τ).loc b))

theorem zero_offsets : (![0, 0] : Fin 2 → Nat) = fun _ => 0 := funext fun a => by fin_cases a <;> rfl

/-- An entry of the block the body stores: the sum over `k` of the products of the loaded operands' entries. -/
theorem body_apply (x0 : Vec Ideal S20000x32 .f32) (x1 : Vec Ideal S32x32 .f32) (p : Fin 20000) (q : Fin 32) :
    k0_pay1 (F := Ideal) x0 x1 (ix2 p q) = ∑ k : Fin 32, x0 (ix2 p k) * x1 (ix2 k q) := by
  unfold k0_pay1
  exact matmul_zero_apply dot_S20000x32_S32x32_S20000x32_1_0_0_1_n_n rfl rfl rfl rfl rfl rfl rfl rfl none _ _ p q

/-- Where the three windows stand at a point (decided over the ten points): the operand's block and the result's block
    are the same block of rows, and the weight window stays at the origin. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row blocks is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of `rowsTimes` of the two operand arrays. -/
theorem flushed_eq (c : Dev nD) (t : Fin cfg0.N) :
    (dat0 V c).flushed 2 t = ((cfg0.win 2).blk t).view.read (Elt Ideal)
      (rowsTimes (M := 200000) (K := 32) (N := 32) (V c main_arg0) (V c main_arg2)) := by
  show (cfg0.win 2).cut (grid0.coords t) ((dat0 V c).after 2 t) = _
  rw [after0_2]
  unfold out0_2
  rw [View.canon_unit_zero zero_offsets]
  simp only [View.ld_unit_zero (S := S20000x32) zero_offsets, View.ld_unit_zero (S := S32x32) zero_offsets]
  obtain ⟨e0, e1, e2, e3, e4, e5⟩ := idx_facts t
  funext j
  obtain ⟨p, q, rfl⟩ : ∃ (p : Fin 20000) (q : Fin 32), j = ix2 p q := ⟨j 0, j 1, eq_ix2 j⟩
  show k0_pay1 (iblk0 V c 0 t) (iblk0 V c 1 t) (ix2 p q)
    = rowsTimes (M := 200000) (K := 32) (N := 32) (V c main_arg0) (V c main_arg2) (((cfg0.win 2).blk t).view.emb (ix2 p q))
  refine (body_apply (iblk0 V c 0 t) (iblk0 V c 1 t) p q).trans ?_
  unfold rowsTimes
  refine Finset.sum_congr rfl fun k _ => ?_
  have h0 : iblk0 V c 0 t (ix2 p k) = V c main_arg0 (ix2 (((cfg0.win 2).blk t).view.emb (ix2 p q) 0) k) := by
    show V c main_arg0 (((cfg0.win 0).blk t).view.emb (ix2 p k)) = _
    refine congrArg (V c main_arg0) (funext fun a => Fin.ext ?_)
    match a with
    | ⟨0, _⟩ => show win0_0.index t (0 : Fin 2) * 20000 + 1 * p.val = win0_2.index t (0 : Fin 2) * 20000 + 1 * p.val; omega
    | ⟨1, _⟩ => show win0_0.index t (1 : Fin 2) * 32 + 1 * k.val = k.val; omega
  have h1 : iblk0 V c 1 t (ix2 k q) = V c main_arg2 (ix2 k (((cfg0.win 2).blk t).view.emb (ix2 p q) 1)) := by
    show V c main_arg2 (((cfg0.win 1).blk t).view.emb (ix2 k q)) = _
    refine congrArg (V c main_arg2) (funext fun a => Fin.ext ?_)
    match a with
    | ⟨0, _⟩ => show win0_1.index t (0 : Fin 2) * 32 + 1 * k.val = k.val; omega
    | ⟨1, _⟩ => show win0_1.index t (1 : Fin 2) * 32 + 1 * q.val = win0_2.index t (1 : Fin 2) * 32 + 1 * q.val; omega
  rw [h0, h1]

/-- An index of the result array is in point `t`'s block iff each coordinate is in the block's range on its axis. -/
theorem mem_blk (t : Fin cfg0.N) (i : S200000x32.Idx) :
    i ∈ ((cfg0.win 2).blk t).view.set ↔ ∀ a : Fin 2, win0_2.index t a * S20000x32.size a ≤ (i a).val
      ∧ (i a).val < win0_2.index t a * S20000x32.size a + S20000x32.size a := by
  show i ∈ ((View.whole main_v27).slice (win0_2.rect t)).set ↔ _
  rw [View.set_slice_whole, Rect.mem_set_unit]
  exact Iff.rfl

/-- The ten blocks cover the array: row `r` lies in block `r / 20000`. -/
theorem cover (i : S200000x32.Idx) :
    ∃ t : Fin cfg0.N, (cfg0.win 2).flush t = true ∧ i ∈ ((cfg0.win 2).blk t).view.set := by
  have hi0 : (i 0).val < 200000 := (i 0).isLt
  have hi1 : (i 1).val < 32 := (i 1).isLt
  obtain ⟨t, ht⟩ := idx_onto ⟨(i 0).val / 20000, by omega⟩
  have q0 : win0_2.index t (0 : Fin 2) = (i 0).val / 20000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 20000 ≤ (i 0).val ∧ (i 0).val < win0_2.index t (0 : Fin 2) * 20000 + 20000
    omega
  | ⟨1, _⟩ =>
    show win0_2.index t (1 : Fin 2) * 32 ≤ (i 1).val ∧ (i 1).val < win0_2.index t (1 : Fin 2) * 32 + 32
    omega

/-- THE RESULT ARRAY after the launch: the plain product of the two operand arrays as the launch found them. -/
theorem value (c : Dev nD) :
    (dat0 V c).arrAt 2 cfg0.N = rowsTimes (M := 200000) (K := 32) (N := 32) (V c main_arg0) (V c main_arg2) :=
  (dat0 V c).arrAt_eq_of_cover 2 _ (fun t _ => flushed_eq V c t) (cover)

end Cert.KernelIdeal.FirstProduct

end
-- ==== Proof.SecondProduct.lean ====
/-
  The second dense product: `h1 · W2`, row block by row block.

  The launch walks ten blocks of 20000 rows. At a point the body loads its block of `h1` (20000 × 32) and the whole
  weight matrix (32 × 16), and stores their product into the matching block of the result — both operands are first
  rounded to bf16, which over the extended reals changes nothing, and the product is accumulated into zeros, so an entry
  of the stored block is the plain sum over `k` of `x (r, k) · w (k, c)`. Row `p` of block `t` is row `20000 · t + p` of the
  array, in the operand and in the result alike, and the weight window never moves; so what a point writes back is its block
  of ONE function of the two whole arrays, `rowsTimes x w`, and since the ten blocks cover the 200000 rows the result
  array ends holding exactly that function. Nothing here needs the entries to be finite: both sides are the same sum of
  the same products.
-/
import proofs.«144408_j446676599434_1_alg».proof.Proof.Gen.KernelIdeal.Frame
import proofs.«144408_j446676599434_1_alg».proof.Proof.LibRowsTimes
import Idealize.ShloMosaic.Lib.Pipeline.Value
import Idealize.ShloMosaic.Lib.ValueIdx

noncomputable section

namespace Cert.KernelIdeal.SecondProduct

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.RowsTimes

-- the buffers' contents as the launch finds them: any contents at all
variable (V : (c : Dev nD) → (b : Ref sig .tc) → Buf (Elt Ideal) ((c : Thread nD τ).loc b))

theorem zero_offsets : (![0, 0] : Fin 2 → Nat) = fun _ => 0 := funext fun a => by fin_cases a <;> rfl

/-- An entry of the block the body stores: the sum over `k` of the products of the loaded operands' entries. -/
theorem body_apply (x0 : Vec Ideal S20000x32 .f32) (x1 : Vec Ideal S32x16 .f32) (p : Fin 20000) (q : Fin 16) :
    k2_pay1 (F := Ideal) x0 x1 (ix2 p q) = ∑ k : Fin 32, x0 (ix2 p k) * x1 (ix2 k q) := by
  unfold k2_pay1
  refine (matmul_zero_apply dot_S20000x32_S32x16_S20000x16_1_0_0_1_n_n rfl rfl rfl rfl rfl rfl rfl rfl none _ _ p q).trans ?_
  refine Finset.sum_congr rfl fun k _ => ?_
  show shapeCast S20000x32 x0 shapeCasts_S20000x32_S20000x32 (ix2 p k) * x1 (ix2 k q) = _
  rw [shapeCast_self]

/-- Where the three windows stand at a point (decided over the ten points): the operand's block and the result's block
    are the same block of rows, and the weight window stays at the origin. -/
theorem idx_facts : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every one of the ten row blocks is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What point `t` writes back is block `t` of `rowsTimes` of the two operand arrays. -/
theorem flushed_eq (c : Dev nD) (t : Fin cfg2.N) :
    (dat2 V c).flushed 2 t = ((cfg2.win 2).blk t).view.read (Elt Ideal)
      (rowsTimes (M := 200000) (K := 32) (N := 16) (V c main_v42) (V c main_arg4)) := by
  show (cfg2.win 2).cut (grid2.coords t) ((dat2 V c).after 2 t) = _
  rw [after2_2]
  unfold out2_2
  rw [View.canon_unit_zero zero_offsets]
  simp only [View.ld_unit_zero (S := S20000x32) zero_offsets, View.ld_unit_zero (S := S32x16) zero_offsets]
  obtain ⟨e0, e1, e2, e3, e4, e5⟩ := idx_facts t
  funext j
  obtain ⟨p, q, rfl⟩ : ∃ (p : Fin 20000) (q : Fin 16), j = ix2 p q := ⟨j 0, j 1, eq_ix2 j⟩
  show k2_pay1 (iblk2 V c 0 t) (iblk2 V c 1 t) (ix2 p q)
    = rowsTimes (M := 200000) (K := 32) (N := 16) (V c main_v42) (V c main_arg4) (((cfg2.win 2).blk t).view.emb (ix2 p q))
  refine (body_apply (iblk2 V c 0 t) (iblk2 V c 1 t) p q).trans ?_
  unfold rowsTimes
  refine Finset.sum_congr rfl fun k _ => ?_
  have h0 : iblk2 V c 0 t (ix2 p k) = V c main_v42 (ix2 (((cfg2.win 2).blk t).view.emb (ix2 p q) 0) k) := by
    show V c main_v42 (((cfg2.win 0).blk t).view.emb (ix2 p k)) = _
    refine congrArg (V c main_v42) (funext fun a => Fin.ext ?_)
    match a with
    | ⟨0, _⟩ => show win2_0.index t (0 : Fin 2) * 20000 + 1 * p.val = win2_2.index t (0 : Fin 2) * 20000 + 1 * p.val; omega
    | ⟨1, _⟩ => show win2_0.index t (1 : Fin 2) * 32 + 1 * k.val = k.val; omega
  have h1 : iblk2 V c 1 t (ix2 k q) = V c main_arg4 (ix2 k (((cfg2.win 2).blk t).view.emb (ix2 p q) 1)) := by
    show V c main_arg4 (((cfg2.win 1).blk t).view.emb (ix2 k q)) = _
    refine congrArg (V c main_arg4) (funext fun a => Fin.ext ?_)
    match a with
    | ⟨0, _⟩ => show win2_1.index t (0 : Fin 2) * 32 + 1 * k.val = k.val; omega
    | ⟨1, _⟩ => show win2_1.index t (1 : Fin 2) * 16 + 1 * q.val = win2_2.index t (1 : Fin 2) * 16 + 1 * q.val; omega
  rw [h0, h1]

/-- An index of the result array is in point `t`'s block iff each coordinate is in the block's range on its axis. -/
theorem mem_blk (t : Fin cfg2.N) (i : S200000x16.Idx) :
    i ∈ ((cfg2.win 2).blk t).view.set ↔ ∀ a : Fin 2, win2_2.index t a * S20000x16.size a ≤ (i a).val
      ∧ (i a).val < win2_2.index t a * S20000x16.size a + S20000x16.size a := by
  show i ∈ ((View.whole main_v43).slice (win2_2.rect t)).set ↔ _
  rw [View.set_slice_whole, Rect.mem_set_unit]
  exact Iff.rfl

/-- The ten blocks cover the array: row `r` lies in block `r / 20000`. -/
theorem cover (i : S200000x16.Idx) :
    ∃ t : Fin cfg2.N, (cfg2.win 2).flush t = true ∧ i ∈ ((cfg2.win 2).blk t).view.set := by
  have hi0 : (i 0).val < 200000 := (i 0).isLt
  have hi1 : (i 1).val < 16 := (i 1).isLt
  obtain ⟨t, ht⟩ := idx_onto ⟨(i 0).val / 20000, by omega⟩
  have q0 : win2_2.index t (0 : Fin 2) = (i 0).val / 20000 := congrFun ht 0
  have q1 : win2_2.index t (1 : Fin 2) = 0 := congrFun ht 1
  refine ⟨t, flush2_2 t, ?_⟩
  rw [mem_blk]
  intro a
  match a with
  | ⟨0, _⟩ =>
    show win2_2.index t (0 : Fin 2) * 20000 ≤ (i 0).val ∧ (i 0).val < win2_2.index t (0 : Fin 2) * 20000 + 20000
    omega
  | ⟨1, _⟩ =>
    show win2_2.index t (1 : Fin 2) * 16 ≤ (i 1).val ∧ (i 1).val < win2_2.index t (1 : Fin 2) * 16 + 16
    omega

/-- THE RESULT ARRAY after the launch: the plain product of the two operand arrays as the launch found them. -/
theorem value (c : Dev nD) :
    (dat2 V c).arrAt 2 cfg2.N = rowsTimes (M := 200000) (K := 32) (N := 16) (V c main_v42) (V c main_arg4) :=
  (dat2 V c).arrAt_eq_of_cover 2 _ (fun t _ => flushed_eq V c t) (cover)

end Cert.KernelIdeal.SecondProduct

end
-- ==== Proof.BiasRelu.lean ====
/-
  The first layer's bias and ReLU: `max (agg + b1, 0)`, row block by row block.

  The launch walks ten blocks of 20000 rows. At a point the body loads its block of the aggregated features
  (20000 × 32) and the bias as a single row (1 × 32, the same row at every point), stands that row under every row of
  the block, adds, and takes the larger of the sum and zero, and stores the result into the matching block of the output. Row `p` of block `t`
  is row `20000 · t + p` of the array on both sides, so what a point writes back is its block of ONE function of the two
  whole arrays — entry `(r, c)` is `max (agg (r, c) + row (0, c)) 0` — and since the ten blocks cover the 200000 rows the output
  array ends holding exactly that function. Only one addition and one maximum per entry: no law of arithmetic is used.
-/
import proofs.«144408_j446676599434_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.BiasRelu

open Cert.KernelIdeal Cert.KernelIdeal.Gen Idealize.ShloMosaic Idealize.ShloMosaic.TcCoe Idealize.SL.Sem
open Idealize.ShloMosaic.Pipeline (Dat)
open Idealize.ShloMosaic.ValueIdx

-- the buffers' contents as the launch finds them: any contents at all
variable (V : (c : Dev nD) → (b : Ref sig .tc) → Buf (Elt Ideal) ((c : Thread nD τ).loc b))

/-- The output as one function of the aggregated features and the bias row: entry `(r, c)` is
    `max (agg (r, c) + row (0, c)) 0`. -/
def biasRelu (agg : FVec Ideal S200000x32 .f32) (row : FVec Ideal S1x32 .f32) : FVec Ideal S200000x32 .f32 :=
  fun i => FloatOps.maximumf (F := Ideal) (φ := .f32) (FloatOps.addf (F := Ideal) (φ := .f32) (agg i) (row (ix2 (0 : Fin 1) (i 1)))) (FloatOps.ofBits (F := Ideal) .f32 0x00000000#32)

theorem zero_offsets : (![0, 0] : Fin 2 → Nat) = fun _ => 0 := funext fun a => by fin_cases a <;> rfl

/-- An entry of the block the body stores, from the loaded bias row `v0` and the loaded block `v4`. -/
theorem body_apply (v0 : Vec Ideal S1x32 .f32) (v4 : Vec Ideal S20000x32 .f32) (p : Fin 20000) (q : Fin 32) :
    k1_pay1 (F := Ideal) v0 v4 (ix2 p q)
      = FloatOps.maximumf (F := Ideal) (φ := .f32) (FloatOps.addf (F := Ideal) (φ := .f32) (v4 (ix2 p q)) (v0 (ix2 (0 : Fin 1) q))) (FloatOps.ofBits (F := Ideal) .f32 0x00000000#32) := by
  unfold k1_pay1
  have hrow : broadcastTo S20000x32 (shapeCast S1x32 (shapeCast S1x32 v0 shapeCasts_S1x32_S1x32) shapeCasts_S1x32_S1x32) broadcasts_S1x32_S20000x32 (ix2 p q)
      = v0 (ix2 (0 : Fin 1) q) := by
    rw [shapeCast_self, shapeCast_self]
    exact broadcastTo_1b_ab_apply v0 broadcasts_S1x32_S20000x32 p q
  have hblk : shapeCast S20000x32 v4 shapeCasts_S20000x32_S20000x32 (ix2 p q) = v4 (ix2 p q) := by
    rw [shapeCast_self]
  show FloatOps.maximumf (F := Ideal) (φ := .f32) (FloatOps.addf (F := Ideal) (φ := .f32) (shapeCast S20000x32 v4 shapeCasts_S20000x32_S20000x32 (ix2 p q))
      (broadcastTo S20000x32 (shapeCast S1x32 (shapeCast S1x32 v0 shapeCasts_S1x32_S1x32) shapeCasts_S1x32_S1x32) broadcasts_S1x32_S20000x32 (ix2 p q))) _ = _
  rw [hrow, hblk]
  rfl

/-- Where the three windows stand at a point (decided over the ten points): the input's block and the output's block are
    the same block of rows, and the bias row's window stays at the origin. -/
theorem idx_facts : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every one of the ten row blocks is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- What point `t` writes back is block `t` of `biasRelu` of the two input arrays. -/
theorem flushed_eq (c : Dev nD) (t : Fin cfg1.N) :
    (dat1 V c).flushed 2 t = ((cfg1.win 2).blk t).view.read (Elt Ideal) (biasRelu (V c main_v40) (V c main_v41)) := by
  show (cfg1.win 2).cut (grid1.coords t) ((dat1 V c).after 2 t) = _
  rw [after1_2]
  unfold out1_2
  rw [View.canon_unit_zero zero_offsets]
  simp only [View.ld_unit_zero (S := S20000x32) zero_offsets, View.ld_unit_zero (S := S1x32) zero_offsets]
  obtain ⟨e0, e1, e2, e3, e4, e5⟩ := idx_facts t
  funext j
  obtain ⟨p, q, rfl⟩ : ∃ (p : Fin 20000) (q : Fin 32), j = ix2 p q := ⟨j 0, j 1, eq_ix2 j⟩
  show k1_pay1 (iblk1 V c 1 t) (iblk1 V c 0 t) (ix2 p q)
    = biasRelu (V c main_v40) (V c main_v41) (((cfg1.win 2).blk t).view.emb (ix2 p q))
  refine (body_apply (iblk1 V c 1 t) (iblk1 V c 0 t) p q).trans ?_
  have h0 : iblk1 V c 0 t (ix2 p q) = V c main_v40 (((cfg1.win 2).blk t).view.emb (ix2 p q)) := by
    show V c main_v40 (((cfg1.win 0).blk t).view.emb (ix2 p q)) = _
    refine congrArg (V c main_v40) (funext fun a => Fin.ext ?_)
    match a with
    | ⟨0, _⟩ => show win1_0.index t (0 : Fin 2) * 20000 + 1 * p.val = win1_2.index t (0 : Fin 2) * 20000 + 1 * p.val; omega
    | ⟨1, _⟩ => show win1_0.index t (1 : Fin 2) * 32 + 1 * q.val = win1_2.index t (1 : Fin 2) * 32 + 1 * q.val; omega
  have h1 : iblk1 V c 1 t (ix2 (0 : Fin 1) q)
      = V c main_v41 (ix2 (0 : Fin 1) (((cfg1.win 2).blk t).view.emb (ix2 p q) 1)) := by
    show V c main_v41 (((cfg1.win 1).blk t).view.emb (ix2 (0 : Fin 1) q)) = _
    refine congrArg (V c main_v41) (funext fun a => Fin.ext ?_)
    match a with
    | ⟨0, _⟩ => show win1_1.index t (0 : Fin 2) * 1 + 1 * 0 = 0; omega
    | ⟨1, _⟩ => show win1_1.index t (1 : Fin 2) * 32 + 1 * q.val = win1_2.index t (1 : Fin 2) * 32 + 1 * q.val; omega
  rw [h0, h1]
  rfl

/-- An index of the output array is in point `t`'s block iff each coordinate is in the block's range on its axis. -/
theorem mem_blk (t : Fin cfg1.N) (i : S200000x32.Idx) :
    i ∈ ((cfg1.win 2).blk t).view.set ↔ ∀ a : Fin 2, win1_2.index t a * S20000x32.size a ≤ (i a).val
      ∧ (i a).val < win1_2.index t a * S20000x32.size a + S20000x32.size a := by
  show i ∈ ((View.whole main_v42).slice (win1_2.rect t)).set ↔ _
  rw [View.set_slice_whole, Rect.mem_set_unit]
  exact Iff.rfl

/-- The ten blocks cover the array: row `r` lies in block `r / 20000`. -/
theorem cover (i : S200000x32.Idx) :
    ∃ t : Fin cfg1.N, (cfg1.win 2).flush t = true ∧ i ∈ ((cfg1.win 2).blk t).view.set := by
  have hi0 : (i 0).val < 200000 := (i 0).isLt
  have hi1 : (i 1).val < 32 := (i 1).isLt
  obtain ⟨t, ht⟩ := idx_onto ⟨(i 0).val / 20000, by omega⟩
  have q0 : win1_2.index t (0 : Fin 2) = (i 0).val / 20000 := congrFun ht 0
  have q1 : win1_2.index t (1 : Fin 2) = 0 := congrFun ht 1
  refine ⟨t, flush1_2 t, ?_⟩
  rw [mem_blk]
  intro a
  match a with
  | ⟨0, _⟩ =>
    show win1_2.index t (0 : Fin 2) * 20000 ≤ (i 0).val ∧ (i 0).val < win1_2.index t (0 : Fin 2) * 20000 + 20000
    omega
  | ⟨1, _⟩ =>
    show win1_2.index t (1 : Fin 2) * 32 ≤ (i 1).val ∧ (i 1).val < win1_2.index t (1 : Fin 2) * 32 + 32
    omega

/-- THE OUTPUT ARRAY after the launch: `biasRelu` of the two input arrays as the launch found them. -/
theorem value (c : Dev nD) : (dat1 V c).arrAt 2 cfg1.N = biasRelu (V c main_v40) (V c main_v41) :=
  (dat1 V c).arrAt_eq_of_cover 2 _ (fun t _ => flushed_eq V c t) (cover)

end Cert.KernelIdeal.BiasRelu

end
-- ==== Proof.BiasAdd.lean ====
/-
  The second layer's bias: `agg + b2`, row block by row block.

  The launch walks ten blocks of 20000 rows. At a point the body loads its block of the aggregated features
  (20000 × 16) and the bias as a single row (1 × 16, the same row at every point), stands that row under every row of
  the block, adds, and stores the result into the matching block of the output. Row `p` of block `t`
  is row `20000 · t + p` of the array on both sides, so what a point writes back is its block of ONE function of the two
  whole arrays — entry `(r, c)` is `agg (r, c) + row (0, c)` — and since the ten blocks cover the 200000 rows the output
  array ends holding exactly that function. Only one addition per entry: no law of arithmetic is used.
-/
import proofs.«144408_j446676599434_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.BiasAdd

open Cert.KernelIdeal Cert.KernelIdeal.Gen Idealize.ShloMosaic Idealize.ShloMosaic.TcCoe Idealize.SL.Sem
open Idealize.ShloMosaic.Pipeline (Dat)
open Idealize.ShloMosaic.ValueIdx

-- the buffers' contents as the launch finds them: any contents at all
variable (V : (c : Dev nD) → (b : Ref sig .tc) → Buf (Elt Ideal) ((c : Thread nD τ).loc b))

/-- The output as one function of the aggregated features and the bias row: entry `(r, c)` is
    `agg (r, c) + row (0, c)`. -/
def biasAdd (agg : FVec Ideal S200000x16 .f32) (row : FVec Ideal S1x16 .f32) : FVec Ideal S200000x16 .f32 :=
  fun i => FloatOps.addf (F := Ideal) (φ := .f32) (agg i) (row (ix2 (0 : Fin 1) (i 1)))

theorem zero_offsets : (![0, 0] : Fin 2 → Nat) = fun _ => 0 := funext fun a => by fin_cases a <;> rfl

/-- An entry of the block the body stores, from the loaded bias row `v0` and the loaded block `v4`. -/
theorem body_apply (v0 : Vec Ideal S1x16 .f32) (v4 : Vec Ideal S20000x16 .f32) (p : Fin 20000) (q : Fin 16) :
    k3_pay1 (F := Ideal) v0 v4 (ix2 p q)
      = FloatOps.addf (F := Ideal) (φ := .f32) (v4 (ix2 p q)) (v0 (ix2 (0 : Fin 1) q)) := by
  unfold k3_pay1
  have hrow : broadcastTo S20000x16 (shapeCast S1x16 (shapeCast S1x16 v0 shapeCasts_S1x16_S1x16) shapeCasts_S1x16_S1x16) broadcasts_S1x16_S20000x16 (ix2 p q)
      = v0 (ix2 (0 : Fin 1) q) := by
    rw [shapeCast_self, shapeCast_self]
    exact broadcastTo_1b_ab_apply v0 broadcasts_S1x16_S20000x16 p q
  have hblk : shapeCast S20000x16 v4 shapeCasts_S20000x16_S20000x16 (ix2 p q) = v4 (ix2 p q) := by
    rw [shapeCast_self]
  show FloatOps.addf (F := Ideal) (φ := .f32) (shapeCast S20000x16 v4 shapeCasts_S20000x16_S20000x16 (ix2 p q))
      (broadcastTo S20000x16 (shapeCast S1x16 (shapeCast S1x16 v0 shapeCasts_S1x16_S1x16) shapeCasts_S1x16_S1x16) broadcasts_S1x16_S20000x16 (ix2 p q)) = _
  rw [hrow, hblk]

/-- Where the three windows stand at a point (decided over the ten points): the input's block and the output's block are
    the same block of rows, and the bias row's window stays at the origin. -/
theorem idx_facts : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every one of the ten row blocks is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- What point `t` writes back is block `t` of `biasAdd` of the two input arrays. -/
theorem flushed_eq (c : Dev nD) (t : Fin cfg3.N) :
    (dat3 V c).flushed 2 t = ((cfg3.win 2).blk t).view.read (Elt Ideal) (biasAdd (V c main_v56) (V c main_v57)) := by
  show (cfg3.win 2).cut (grid3.coords t) ((dat3 V c).after 2 t) = _
  rw [after3_2]
  unfold out3_2
  rw [View.canon_unit_zero zero_offsets]
  simp only [View.ld_unit_zero (S := S20000x16) zero_offsets, View.ld_unit_zero (S := S1x16) zero_offsets]
  obtain ⟨e0, e1, e2, e3, e4, e5⟩ := idx_facts t
  funext j
  obtain ⟨p, q, rfl⟩ : ∃ (p : Fin 20000) (q : Fin 16), j = ix2 p q := ⟨j 0, j 1, eq_ix2 j⟩
  show k3_pay1 (iblk3 V c 1 t) (iblk3 V c 0 t) (ix2 p q)
    = biasAdd (V c main_v56) (V c main_v57) (((cfg3.win 2).blk t).view.emb (ix2 p q))
  refine (body_apply (iblk3 V c 1 t) (iblk3 V c 0 t) p q).trans ?_
  have h0 : iblk3 V c 0 t (ix2 p q) = V c main_v56 (((cfg3.win 2).blk t).view.emb (ix2 p q)) := by
    show V c main_v56 (((cfg3.win 0).blk t).view.emb (ix2 p q)) = _
    refine congrArg (V c main_v56) (funext fun a => Fin.ext ?_)
    match a with
    | ⟨0, _⟩ => show win3_0.index t (0 : Fin 2) * 20000 + 1 * p.val = win3_2.index t (0 : Fin 2) * 20000 + 1 * p.val; omega
    | ⟨1, _⟩ => show win3_0.index t (1 : Fin 2) * 16 + 1 * q.val = win3_2.index t (1 : Fin 2) * 16 + 1 * q.val; omega
  have h1 : iblk3 V c 1 t (ix2 (0 : Fin 1) q)
      = V c main_v57 (ix2 (0 : Fin 1) (((cfg3.win 2).blk t).view.emb (ix2 p q) 1)) := by
    show V c main_v57 (((cfg3.win 1).blk t).view.emb (ix2 (0 : Fin 1) q)) = _
    refine congrArg (V c main_v57) (funext fun a => Fin.ext ?_)
    match a with
    | ⟨0, _⟩ => show win3_1.index t (0 : Fin 2) * 1 + 1 * 0 = 0; omega
    | ⟨1, _⟩ => show win3_1.index t (1 : Fin 2) * 16 + 1 * q.val = win3_2.index t (1 : Fin 2) * 16 + 1 * q.val; omega
  rw [h0, h1]
  rfl

/-- An index of the output array is in point `t`'s block iff each coordinate is in the block's range on its axis. -/
theorem mem_blk (t : Fin cfg3.N) (i : S200000x16.Idx) :
    i ∈ ((cfg3.win 2).blk t).view.set ↔ ∀ a : Fin 2, win3_2.index t a * S20000x16.size a ≤ (i a).val
      ∧ (i a).val < win3_2.index t a * S20000x16.size a + S20000x16.size a := by
  show i ∈ ((View.whole main_v58).slice (win3_2.rect t)).set ↔ _
  rw [View.set_slice_whole, Rect.mem_set_unit]
  exact Iff.rfl

/-- The ten blocks cover the array: row `r` lies in block `r / 20000`. -/
theorem cover (i : S200000x16.Idx) :
    ∃ t : Fin cfg3.N, (cfg3.win 2).flush t = true ∧ i ∈ ((cfg3.win 2).blk t).view.set := by
  have hi0 : (i 0).val < 200000 := (i 0).isLt
  have hi1 : (i 1).val < 16 := (i 1).isLt
  obtain ⟨t, ht⟩ := idx_onto ⟨(i 0).val / 20000, by omega⟩
  have q0 : win3_2.index t (0 : Fin 2) = (i 0).val / 20000 := congrFun ht 0
  have q1 : win3_2.index t (1 : Fin 2) = 0 := congrFun ht 1
  refine ⟨t, flush3_2 t, ?_⟩
  rw [mem_blk]
  intro a
  match a with
  | ⟨0, _⟩ =>
    show win3_2.index t (0 : Fin 2) * 20000 ≤ (i 0).val ∧ (i 0).val < win3_2.index t (0 : Fin 2) * 20000 + 20000
    omega
  | ⟨1, _⟩ =>
    show win3_2.index t (1 : Fin 2) * 16 ≤ (i 1).val ∧ (i 1).val < win3_2.index t (1 : Fin 2) * 16 + 16
    omega

/-- THE OUTPUT ARRAY after the launch: `biasAdd` of the two input arrays as the launch found them. -/
theorem value (c : Dev nD) : (dat3 V c).arrAt 2 cfg3.N = biasAdd (V c main_v56) (V c main_v57) :=
  (dat3 V c).arrAt_eq_of_cover 2 _ (fun t _ => flushed_eq V c t) (cover)

end Cert.KernelIdeal.BiasAdd

end
-- ==== Proof.Bridge.lean ====
/-
  The four launches' whole-array functions are the reference's own stages.

  `rowsTimes x w` is the host's `dot_general` of a plain product (both are the sum over `k` of `x (r, k) · w (k, c)`);
  the bias launches read the bias through a 1 × n row that the host made by a reshape, where the reference broadcasts
  the bias vector to a 1 × n row and then down the 200000 rows — at entry `(r, c)` both read the bias at `c`; and the
  first layer's `max (·, 0)` is the reference's ReLU, a maximum with a broadcast zero. Each statement takes the
  aggregated features as an arbitrary array: nothing upstream is opened.
-/
import proofs.«144408_j446676599434_1_alg».proof.Proof.Gen.ReferenceIdeal.Read
import proofs.«144408_j446676599434_1_alg».proof.Proof.BiasRelu
import proofs.«144408_j446676599434_1_alg».proof.Proof.BiasAdd
import proofs.«144408_j446676599434_1_alg».proof.Proof.LibRowsTimes
import Idealize.ShloMosaic.Lib.ValueLayout

noncomputable section

namespace Cert.KernelIdeal.Bridge

open Cert.ReferenceIdeal.Read
open Idealize.ShloMosaic Idealize.ShloMosaic.ValueIdx Idealize.ShloMosaic.RowsTimes

/-- The reference's first `dot_general` is the plain product of its operands. -/
theorem product1_eq (x0 : FVec Ideal Cert.ReferenceIdeal.S200000x32 .f32) (x2 : FVec Ideal Cert.ReferenceIdeal.S32x32 .f32) :
    val_main_v27 (F := Ideal) x0 x2 = rowsTimes (M := 200000) (K := 32) (N := 32) x0 x2 := by
  unfold val_main_v27
  exact hostDot_eq Cert.ReferenceIdeal.dot_S200000x32_S32x32_S200000x32_1_0_0_1_n_n rfl rfl rfl rfl rfl rfl rfl rfl none x0 x2

/-- The reference's second `dot_general`, of any left operand `h`, is the plain product. -/
theorem product2_eq (h : FVec Ideal Cert.ReferenceIdeal.S200000x32 .f32) (x4 : FVec Ideal Cert.ReferenceIdeal.S32x16 .f32) :
    Host.dotGeneral (F := Ideal) Cert.ReferenceIdeal.dot_S200000x32_S32x16_S200000x16_1_0_0_1_n_n none h x4
      = rowsTimes (M := 200000) (K := 32) (N := 16) h x4 :=
  hostDot_eq Cert.ReferenceIdeal.dot_S200000x32_S32x16_S200000x16_1_0_0_1_n_n rfl rfl rfl rfl rfl rfl rfl rfl none h x4

/-- The first bias launch's function, its row the reshaped bias, is the reference's add of the broadcast bias followed
    by its ReLU. -/
theorem biasRelu_eq (agg : FVec Ideal Cert.ReferenceIdeal.S200000x32 .f32) (x3 : FVec Ideal Cert.ReferenceIdeal.S32 .f32)
    (hc : Cert.KernelIdeal.S32.ShapeCasts Cert.KernelIdeal.S1x32) :
    Cert.KernelIdeal.BiasRelu.biasRelu agg (shapeCast Cert.KernelIdeal.S1x32 x3 hc)
      = maximumf (addf agg (val_main_v42 (F := Ideal) x3)) (val_main_call0_v0 (F := Ideal)) := by
  funext i
  obtain ⟨r, q, rfl⟩ : ∃ (r : Fin 200000) (q : Fin 32), i = ix2 r q := ⟨i 0, i 1, eq_ix2 i⟩
  have hrow : shapeCast Cert.KernelIdeal.S1x32 x3 hc (ix2 (0 : Fin 1) q) = x3 (ix1 q) :=
    shapeCast_a_1a_apply x3 _ 0 q
  have hidx : idx_main_v41 (idx_main_v42 (ix2 r q)) = ix1 q := funext fun a => match a with | ⟨0, _⟩ => rfl
  show FloatOps.maximumf (F := Ideal) (φ := .f32) (FloatOps.addf (F := Ideal) (φ := .f32) (agg (ix2 r q))
        (shapeCast Cert.KernelIdeal.S1x32 x3 hc (ix2 (0 : Fin 1) q))) (FloatOps.ofBits (F := Ideal) .f32 0x00000000#32)
    = FloatOps.maximumf (F := Ideal) (φ := .f32) (FloatOps.addf (F := Ideal) (φ := .f32) (agg (ix2 r q)) (val_main_v42 (F := Ideal) x3 (ix2 r q)))
        (val_main_call0_v0 (F := Ideal) (ix2 r q))
  rw [val_main_v42_apply, val_main_v41_apply, val_main_call0_v0_apply, val_main_call0_cst_apply, hrow, hidx]

/-- The last bias launch's function, its row the reshaped bias, is the reference's add of the broadcast bias. -/
theorem biasAdd_eq (agg : FVec Ideal Cert.ReferenceIdeal.S200000x16 .f32) (x5 : FVec Ideal Cert.ReferenceIdeal.S16 .f32)
    (hc : Cert.KernelIdeal.S16.ShapeCasts Cert.KernelIdeal.S1x16) :
    Cert.KernelIdeal.BiasAdd.biasAdd agg (shapeCast Cert.KernelIdeal.S1x16 x5 hc)
      = addf agg (val_main_v60 (F := Ideal) x5) := by
  funext i
  obtain ⟨r, q, rfl⟩ : ∃ (r : Fin 200000) (q : Fin 16), i = ix2 r q := ⟨i 0, i 1, eq_ix2 i⟩
  have hrow : shapeCast Cert.KernelIdeal.S1x16 x5 hc (ix2 (0 : Fin 1) q) = x5 (ix1 q) :=
    shapeCast_a_1a_apply x5 _ 0 q
  have hidx : idx_main_v59 (idx_main_v60 (ix2 r q)) = ix1 q := funext fun a => match a with | ⟨0, _⟩ => rfl
  show FloatOps.addf (F := Ideal) (φ := .f32) (agg (ix2 r q))
        (shapeCast Cert.KernelIdeal.S1x16 x5 hc (ix2 (0 : Fin 1) q))
    = FloatOps.addf (F := Ideal) (φ := .f32) (agg (ix2 r q)) (val_main_v60 (F := Ideal) x5 (ix2 r q))
  rw [val_main_v60_apply, val_main_v59_apply, hrow, hidx]

end Cert.KernelIdeal.Bridge

end
-- ==== Proof.Chain.lean ====
/-
  The buffers at the seven boundaries of the program, read back to the arguments.

  `Gen.W1` … `Gen.W7` are the buffer contents after each segment of @main. Walking forward: after the first host stretch
  the source column, the target column and the edge weights hold the reference's stage functions of the edge list; the
  first launch leaves `x · W1` (the reference's first `dot_general`); the second stretch aggregates it (the reference's
  scatter-add stage) and stands the bias up as a row; the second launch leaves the reference's ReLU stage; the third
  launch the reference's second `dot_general`; the last stretch aggregates again; the last launch adds the second bias,
  which is the reference's result. A launch writes only its result array and a host stretch only its own results, so
  the columns, the weights and the arguments not yet used ride along unchanged.
-/
import proofs.«144408_j446676599434_1_alg».proof.Proof.Gen.KernelIdeal.Frame
import proofs.«144408_j446676599434_1_alg».proof.Proof.Gen.ReferenceIdeal.Read
import proofs.«144408_j446676599434_1_alg».proof.Proof.HostFirst
import proofs.«144408_j446676599434_1_alg».proof.Proof.HostSecond
import proofs.«144408_j446676599434_1_alg».proof.Proof.HostThird
import proofs.«144408_j446676599434_1_alg».proof.Proof.FirstProduct
import proofs.«144408_j446676599434_1_alg».proof.Proof.SecondProduct
import proofs.«144408_j446676599434_1_alg».proof.Proof.BiasRelu
import proofs.«144408_j446676599434_1_alg».proof.Proof.BiasAdd
import proofs.«144408_j446676599434_1_alg».proof.Proof.Bridge

set_option maxRecDepth 16384

noncomputable section

namespace Cert.KernelIdeal.Chain

open Cert.KernelIdeal Cert.KernelIdeal.Gen Cert.ReferenceIdeal.Read
open Idealize.ShloMosaic Idealize.ShloMosaic.TcCoe Idealize.SL.Sem

variable (m : (ℓ : Loc nD τ sig) → Buf (Elt Ideal) ℓ) (ρ : Dev nD → PrngReg) (c : Dev nD)

/-! ## After the first host stretch -/

theorem src1 : W1 m ρ c (Proc.devRef .tc main_v3) = val_main_v3 (F := Ideal) (m ((c : Thread nD τ).loc main_arg1)) := HostFirst.src_eq (W0 m ρ c)
theorem dst1 : W1 m ρ c (Proc.devRef .tc main_v6) = val_main_v6 (F := Ideal) (m ((c : Thread nD τ).loc main_arg1)) := HostFirst.dst_eq (W0 m ρ c)
theorem norm1 : W1 m ρ c (Proc.devRef .tc main_v26) = val_main_v26 (F := Ideal) (m ((c : Thread nD τ).loc main_arg1)) := HostFirst.norm_eq (W0 m ρ c)
theorem x1_ : W1 m ρ c (Proc.devRef .tc main_arg0) = (m ((c : Thread nD τ).loc main_arg0)) := HostFirst.keeps_arg0 (W0 m ρ c)
theorem w1_1 : W1 m ρ c (Proc.devRef .tc main_arg2) = (m ((c : Thread nD τ).loc main_arg2)) := HostFirst.keeps_arg2 (W0 m ρ c)
theorem b1_1 : W1 m ρ c (Proc.devRef .tc main_arg3) = (m ((c : Thread nD τ).loc main_arg3)) := HostFirst.keeps_arg3 (W0 m ρ c)
theorem w2_1 : W1 m ρ c (Proc.devRef .tc main_arg4) = (m ((c : Thread nD τ).loc main_arg4)) := HostFirst.keeps_arg4 (W0 m ρ c)
theorem b2_1 : W1 m ρ c (Proc.devRef .tc main_arg5) = (m ((c : Thread nD τ).loc main_arg5)) := HostFirst.keeps_arg5 (W0 m ρ c)

/-! ## After the first dense product -/

theorem hw2 : W2 m ρ c (Proc.devRef .tc main_v27) = val_main_v27 (F := Ideal) (m ((c : Thread nD τ).loc main_arg0)) (m ((c : Thread nD τ).loc main_arg2)) :=
  (W2_arr m ρ c 2).trans ((FirstProduct.value (V1 m ρ) c).trans
    ((congrArg₂ (RowsTimes.rowsTimes (M := 200000) (K := 32) (N := 32)) (x1_ m ρ c) (w1_1 m ρ c)).trans
      (Bridge.product1_eq _ _).symm))
theorem src2 : W2 m ρ c (Proc.devRef .tc main_v3) = val_main_v3 (F := Ideal) (m ((c : Thread nD τ).loc main_arg1)) := (W2_of_ne m ρ c main_v3 (by decide)).trans (src1 m ρ c)
theorem dst2 : W2 m ρ c (Proc.devRef .tc main_v6) = val_main_v6 (F := Ideal) (m ((c : Thread nD τ).loc main_arg1)) := (W2_of_ne m ρ c main_v6 (by decide)).trans (dst1 m ρ c)
theorem norm2 : W2 m ρ c (Proc.devRef .tc main_v26) = val_main_v26 (F := Ideal) (m ((c : Thread nD τ).loc main_arg1)) := (W2_of_ne m ρ c main_v26 (by decide)).trans (norm1 m ρ c)
theorem b1_2 : W2 m ρ c (Proc.devRef .tc main_arg3) = (m ((c : Thread nD τ).loc main_arg3)) := (W2_of_ne m ρ c main_arg3 (by decide)).trans (b1_1 m ρ c)
theorem w2_2 : W2 m ρ c (Proc.devRef .tc main_arg4) = (m ((c : Thread nD τ).loc main_arg4)) := (W2_of_ne m ρ c main_arg4 (by decide)).trans (w2_1 m ρ c)
theorem b2_2 : W2 m ρ c (Proc.devRef .tc main_arg5) = (m ((c : Thread nD τ).loc main_arg5)) := (W2_of_ne m ρ c main_arg5 (by decide)).trans (b2_1 m ρ c)

/-! ## After the second host stretch -/

theorem agg3 : W3 m ρ c (Proc.devRef .tc main_v40) = val_main_v40 (F := Ideal) (m ((c : Thread nD τ).loc main_arg0)) (m ((c : Thread nD τ).loc main_arg1)) (m ((c : Thread nD τ).loc main_arg2)) :=
  HostSecond.agg_eq (W2 m ρ c) _ _ _ (src2 m ρ c) (dst2 m ρ c) (norm2 m ρ c) (hw2 m ρ c)
theorem row3 : W3 m ρ c (Proc.devRef .tc main_v41) = shapeCast S1x32 (m ((c : Thread nD τ).loc main_arg3)) shapeCasts_S32_S1x32 :=
  (HostSecond.row_eq (W2 m ρ c)).trans (congrArg (fun b => shapeCast S1x32 b shapeCasts_S32_S1x32) (b1_2 m ρ c))
theorem src3 : W3 m ρ c (Proc.devRef .tc main_v3) = val_main_v3 (F := Ideal) (m ((c : Thread nD τ).loc main_arg1)) := (HostSecond.keeps_v3 (W2 m ρ c)).trans (src2 m ρ c)
theorem dst3 : W3 m ρ c (Proc.devRef .tc main_v6) = val_main_v6 (F := Ideal) (m ((c : Thread nD τ).loc main_arg1)) := (HostSecond.keeps_v6 (W2 m ρ c)).trans (dst2 m ρ c)
theorem norm3 : W3 m ρ c (Proc.devRef .tc main_v26) = val_main_v26 (F := Ideal) (m ((c : Thread nD τ).loc main_arg1)) := (HostSecond.keeps_v26 (W2 m ρ c)).trans (norm2 m ρ c)
theorem w2_3 : W3 m ρ c (Proc.devRef .tc main_arg4) = (m ((c : Thread nD τ).loc main_arg4)) := (HostSecond.keeps_arg4 (W2 m ρ c)).trans (w2_2 m ρ c)
theorem b2_3 : W3 m ρ c (Proc.devRef .tc main_arg5) = (m ((c : Thread nD τ).loc main_arg5)) := (HostSecond.keeps_arg5 (W2 m ρ c)).trans (b2_2 m ρ c)

/-! ## After the first bias launch -/

theorem h4 : W4 m ρ c (Proc.devRef .tc main_v42) = val_main_v44 (F := Ideal) (m ((c : Thread nD τ).loc main_arg0)) (m ((c : Thread nD τ).loc main_arg1)) (m ((c : Thread nD τ).loc main_arg2)) (m ((c : Thread nD τ).loc main_arg3)) :=
  (W4_arr m ρ c 2).trans ((BiasRelu.value (V3 m ρ) c).trans
    ((congrArg₂ BiasRelu.biasRelu (agg3 m ρ c) (row3 m ρ c)).trans (Bridge.biasRelu_eq _ _ _)))
theorem src4 : W4 m ρ c (Proc.devRef .tc main_v3) = val_main_v3 (F := Ideal) (m ((c : Thread nD τ).loc main_arg1)) := (W4_of_ne m ρ c main_v3 (by decide)).trans (src3 m ρ c)
theorem dst4 : W4 m ρ c (Proc.devRef .tc main_v6) = val_main_v6 (F := Ideal) (m ((c : Thread nD τ).loc main_arg1)) := (W4_of_ne m ρ c main_v6 (by decide)).trans (dst3 m ρ c)
theorem norm4 : W4 m ρ c (Proc.devRef .tc main_v26) = val_main_v26 (F := Ideal) (m ((c : Thread nD τ).loc main_arg1)) := (W4_of_ne m ρ c main_v26 (by decide)).trans (norm3 m ρ c)
theorem w2_4 : W4 m ρ c (Proc.devRef .tc main_arg4) = (m ((c : Thread nD τ).loc main_arg4)) := (W4_of_ne m ρ c main_arg4 (by decide)).trans (w2_3 m ρ c)
theorem b2_4 : W4 m ρ c (Proc.devRef .tc main_arg5) = (m ((c : Thread nD τ).loc main_arg5)) := (W4_of_ne m ρ c main_arg5 (by decide)).trans (b2_3 m ρ c)

/-! ## After the second dense product -/

theorem hw5 : W5 m ρ c (Proc.devRef .tc main_v43) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W5_arr m ρ c 2).trans ((SecondProduct.value (V4 m ρ) c).trans
    ((congrArg₂ (RowsTimes.rowsTimes (M := 200000) (K := 32) (N := 16)) (h4 m ρ c) (w2_4 m ρ c)).trans
      (Bridge.product2_eq _ _).symm))
theorem src5 : W5 m ρ c (Proc.devRef .tc main_v3) = val_main_v3 (F := Ideal) (m ((c : Thread nD τ).loc main_arg1)) := (W5_of_ne m ρ c main_v3 (by decide)).trans (src4 m ρ c)
theorem dst5 : W5 m ρ c (Proc.devRef .tc main_v6) = val_main_v6 (F := Ideal) (m ((c : Thread nD τ).loc main_arg1)) := (W5_of_ne m ρ c main_v6 (by decide)).trans (dst4 m ρ c)
theorem norm5 : W5 m ρ c (Proc.devRef .tc main_v26) = val_main_v26 (F := Ideal) (m ((c : Thread nD τ).loc main_arg1)) := (W5_of_ne m ρ c main_v26 (by decide)).trans (norm4 m ρ c)
theorem b2_5 : W5 m ρ c (Proc.devRef .tc main_arg5) = (m ((c : Thread nD τ).loc main_arg5)) := (W5_of_ne m ρ c main_arg5 (by decide)).trans (b2_4 m ρ c)

/-! ## After the third host stretch -/

theorem agg6 : W6 m ρ c (Proc.devRef .tc main_v56) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  HostThird.agg_eq (W5 m ρ c) _ _ _ _ _ (src5 m ρ c) (dst5 m ρ c) (norm5 m ρ c) (hw5 m ρ c)
theorem row6 : W6 m ρ c (Proc.devRef .tc main_v57) = shapeCast S1x16 (m ((c : Thread nD τ).loc main_arg5)) shapeCasts_S16_S1x16 :=
  (HostThird.row_eq (W5 m ρ c)).trans (congrArg (fun b => shapeCast S1x16 b shapeCasts_S16_S1x16) (b2_5 m ρ c))

/-! ## After the last bias launch: the program's result -/

/-- THE RESULT: the last boundary's contents at the result buffer are the reference's last stage of the arguments. -/
theorem result : V7 m ρ c main_v58
    = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_arr m ρ c 2).trans ((BiasAdd.value (V6 m ρ) c).trans
    ((congrArg₂ BiasAdd.biasAdd (agg6 m ρ c) (row6 m ρ c)).trans (Bridge.biasAdd_eq _ _ _)))

end Cert.KernelIdeal.Chain

end
-- ==== Proof.lean ====
/-
  A two-layer graph convolution on 200000 nodes and 6400000 edges (plus one self-loop per node), feature widths
  32 → 32 → 16, against its jnp reference, over the extended reals.

  Both programs compute, per layer, `act (Σ_{e : dst e = i} norm e · (h · W)[src e] + b)` with
  `norm e = deg[src e]^(-1/2) · deg[dst e]^(-1/2)` and `deg` the number of edges into a node, ReLU after the first layer
  and nothing after the second. The kernel program does the two dense products `h · W` and the two bias additions (the
  first with its ReLU) in four launches over ten blocks of 20000 rows each, and everything else — the self-loops, the
  degrees, the gathers and the scatter-adds — on the host, exactly as the reference does. Over the extended reals a
  launch's product into a zero accumulator of operands rounded to bf16 is the plain sum of products, which is what the
  host's `dot_general` is; a bias launch adds the bias's one row under every row, which is the reference's broadcast
  add, and its `max (·, 0)` is the reference's ReLU. So every buffer of the kernel program holds the same function of
  the arguments as the reference's corresponding stage, stage by stage, and the two results are equal entry by entry.
  No law of arithmetic beyond re-indexing a finite sum is used, so the finiteness of the inputs is never needed.

  The three frames are the generated ones (the reference's is its generated run with the result dropped); the ideal
  pass rewrote nothing, so `preserves` is trivial.
-/
import proofs.«144408_j446676599434_1_alg».proof.Defs
import proofs.«144408_j446676599434_1_alg».proof.Proof.Gen.Kernel
import proofs.«144408_j446676599434_1_alg».proof.Proof.Gen.Kernel.Frame
import proofs.«144408_j446676599434_1_alg».proof.Proof.Gen.KernelIdeal
import proofs.«144408_j446676599434_1_alg».proof.Proof.Gen.KernelIdeal.Frame
import proofs.«144408_j446676599434_1_alg».proof.Proof.Gen.ReferenceIdeal
import proofs.«144408_j446676599434_1_alg».proof.Proof.Gen.ReferenceIdeal.Run
import proofs.«144408_j446676599434_1_alg».proof.Proof.Gen.ReferenceIdeal.Read
import proofs.«144408_j446676599434_1_alg».proof.Proof.Gen.Pre_finite_inputs
import proofs.«144408_j446676599434_1_alg».proof.Proof.KernelRun
import proofs.«144408_j446676599434_1_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2) (Cert.ReferenceIdeal.Value.run (F := Ideal) m ρ)

/-- From memories agreeing on the six arguments both programs end with the reference's last stage of those arguments:
    the kernel program by its run read back through the seven boundaries, the reference by its generated run. -/
theorem algebraic : Cert.algebraic_KernelIdeal_ReferenceIdeal := by
  intro m ρ m' ρ' _ hagree
  refine ⟨fun c => Cert.ReferenceIdeal.Read.val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Chain.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v61_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
